-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x2048 .f32) (main_arg5 : FVec F S2048x128 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x128 .f32 := Host.absf main_arg5
  let main_cst_8 : FVec F S_ .f32 := constant S_ .f32 0x7F800000#32
  let main_v25 : FVec F S2048x128 .f32 := broadcastInDim S2048x128 ![] bcast_S_S2048x128 main_cst_8
  let main_v26 : IVec S2048x128 1 := cmpf .olt main_v24 main_v25
  let main_c_9 : IVec S_ 1 := constantI S_ 1 1#1
  let main_v27 : IVec S_ 1 := (fun x v => Host.reduce IntOp.andi x v reducesTo_S2048x128_S_d0_1 h_S_) main_v26 main_c_9
  let main_v28 : IVec S_ 1 := andi main_v23 main_v27
  main_v28

def fn {F : FTy → Type} [FloatOps F] (main_arg0 : FVec F S8192x1024 .f32) (main_arg1 : FVec F S2048x1024 .f32) (main_arg2 : FVec F S2048x2048 .f32) (main_arg3 : FVec F S2048x2048 .f32) (main_arg4 : FVec F S2048x2048 .f32) (main_arg5 : FVec F S2048x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S8192x128 : Shape := ⟨2, ![8192, 128]⟩
abbrev S256x1024 : Shape := ⟨2, ![256, 1024]⟩
abbrev S256x128 : Shape := ⟨2, ![256, 128]⟩
abbrev S256x2048 : Shape := ⟨2, ![256, 2048]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x128, .f32⟩
  | .hbm, ⟨6, _⟩ => ⟨S2048x1024, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x128, .bf16⟩
  | .hbm, ⟨11, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x128, .bf16⟩
  | .local _ .vmem, ⟨7, _⟩ => ⟨S256x128, .f32⟩
  | .local _ .vmem, ⟨8, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x128_S256x128_0_0 : ∀ a, (![0, 0] : Fin 2 → Nat) a + S256x128.size a ≤ S256x128.size a
  h_S256x128 : 0 < S256x128.numel
  dot_S256x1024_S2048x1024_S256x2048_1_1_0_0_n_n_wf : DotDims.WF S256x1024 S2048x1024 S256x2048 [1] [1] [0] [0] [] []
  dot_S256x2048_S2048x2048_S256x2048_1_1_0_0_n_n_wf : DotDims.WF S256x2048 S2048x2048 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S8192x128.size a
  hwx0_6 : ∀ i : grid0.Coords, EltTy.bits .f32 = 32 ∨ (Rect.block (s := S8192x128) S256x128.size (cc0_transform_6 i) (hinb0_6 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S1024x2048 : Shape := ⟨2, ![1024, 2048]⟩
abbrev S8192x2048 : Shape := ⟨2, ![8192, 2048]⟩
abbrev S_ : Shape := ⟨0, ![]⟩
abbrev S8192x128 : Shape := ⟨2, ![8192, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x128, .f32⟩
  | .hbm, ⟨6, _⟩ => ⟨S1024x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S2048x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S2048x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S_S8192x2048 : S_.BroadcastsInDim S8192x2048 (![] : Fin 0 → Fin S8192x2048.rank)
  transposes_S2048x2048_S2048x2048_1_0 : S2048x2048.Transposes [1, 0] S2048x2048
  bcast_S_S8192x128 : S_.BroadcastsInDim S8192x128 (![] : Fin 0 → Fin S8192x128.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x128_S8192x128_1_0_0_1_n_n_wf : DotDims.WF S8192x2048 S2048x128 S8192x128 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf

class Facts : Prop extends Facts₀ where

variable [Facts]
-- ==== Proof.Perceptron.lean ====
/-
  A perceptron with four rectified hidden layers and a linear readout, one sample at a time, on the extended reals.

  A hidden layer sends the activations h of width K to the activations of width N whose n-th feature is
      max ((Σ_k h k · w (n, k)) · s, z):
  row n of the weight matrix against the sample, scaled by s, cut below at z. The readout sends h of width K to
      (Σ_k h k · b (k, n)) · s:
  the sample against column n of the readout matrix, scaled. The network on a batch applies the same five maps to
  every row of the batch; row r of the result depends on row r of the batch and on nothing else of it.

  The four scales and the cut are float words read at their exact values; both programs spell the same words, so
  they are never evaluated here, except the last one: one program multiplies by the word of 2^-11 where the other
  divides by the word of 2048, and on every extended real, the infinities included, the two agree.
-/
import Idealize.ShloMosaic.PureOps.Ideal.Laws
import Idealize.ShloMosaic.Lib.ValueIdx

noncomputable section

namespace Cert.Perceptron

open Idealize.ShloMosaic Idealize.ShloMosaic.ValueIdx

/-- A rectified dense layer on one sample: feature n is row n of w against the sample, times s, cut below at z. -/
def hidden {K N : Nat} (s z : EReal) (w : (⟨2, ![N, K]⟩ : Shape).Idx → EReal) (h : Fin K → EReal) : Fin N → EReal :=
  fun n => max ((∑ k : Fin K, h k * w (ix2 n k)) * s) z

/-- The linear readout on one sample: output n is the sample against column n of b, times s. -/
def readout {K N : Nat} (s : EReal) (b : (⟨2, ![K, N]⟩ : Shape).Idx → EReal) (h : Fin K → EReal) : Fin N → EReal :=
  fun n => (∑ k : Fin K, h k * b (ix2 k n)) * s

/-- 1/32 = 1/sqrt 1024, the first layer's scale. -/
abbrev scaleIn : EReal := Ideal.ofBits .f32 0x3D000000#32
/-- The float nearest 1/sqrt 2048, the later layers' scale: the same word in both programs. -/
abbrev scaleHid : EReal := Ideal.ofBits .f32 0x3CB504F3#32
/-- The rectifier's cut, the word of +0. -/
abbrev cut : EReal := Ideal.ofBits .f32 0x00000000#32
/-- 2^-11 = 1/2048, the readout's scale. -/
abbrev invWidth : EReal := Ideal.ofBits .f32 0x3A000000#32

/-- The network on one sample of width 1024: four hidden layers of width 2048, then 128 outputs. -/
def sample (x : Fin 1024 → EReal) (w0 : (⟨2, ![2048, 1024]⟩ : Shape).Idx → EReal)
    (w1 w2 w3 : (⟨2, ![2048, 2048]⟩ : Shape).Idx → EReal) (b : (⟨2, ![2048, 128]⟩ : Shape).Idx → EReal) : Fin 128 → EReal :=
  readout invWidth b (hidden scaleHid cut w3 (hidden scaleHid cut w2 (hidden scaleHid cut w1 (hidden scaleIn cut w0 x))))

/-- The network on a batch of 8192 samples: entry (r, q) is output q of the network on row r. -/
def batch (x : (⟨2, ![8192, 1024]⟩ : Shape).Idx → EReal) (w0 : (⟨2, ![2048, 1024]⟩ : Shape).Idx → EReal)
    (w1 w2 w3 : (⟨2, ![2048, 2048]⟩ : Shape).Idx → EReal) (b : (⟨2, ![2048, 128]⟩ : Shape).Idx → EReal) :
    (⟨2, ![8192, 128]⟩ : Shape).Idx → EReal :=
  fun i => sample (fun k => x (ix2 (i 0 : Fin 8192) k)) w0 w1 w2 w3 b (i 1 : Fin 128)

theorem batch_apply (x : (⟨2, ![8192, 1024]⟩ : Shape).Idx → EReal) (w0 : (⟨2, ![2048, 1024]⟩ : Shape).Idx → EReal)
    (w1 w2 w3 : (⟨2, ![2048, 2048]⟩ : Shape).Idx → EReal) (b : (⟨2, ![2048, 128]⟩ : Shape).Idx → EReal)
    (r : Fin 8192) (q : Fin 128) :
    batch x w0 w1 w2 w3 b (ix2 r q) = sample (fun k => x (ix2 r k)) w0 w1 w2 w3 b q := rfl

/-- The word 0x45000000 is the real 2048. -/
theorem word_width : Ideal.ofBits .f32 0x45000000#32 = ((2048 : ℝ) : EReal) := by
  simp [Ideal.ofBits, Ideal.ieee, -EReal.coe_mul]; norm_num

/-- The word 0x3A000000 is the real 1/2048. -/
theorem word_invWidth : Ideal.ofBits .f32 0x3A000000#32 = ((1 / 2048 : ℝ) : EReal) := by
  simp [Ideal.ofBits, Ideal.ieee, -EReal.coe_mul]; norm_num

/-- Dividing by 2048 is multiplying by 2^-11, on every extended real. -/
theorem div_width (y : EReal) : Ideal.div y (Ideal.ofBits .f32 0x45000000#32) = y * invWidth := by
  rw [word_width, invWidth, word_invWidth]
  exact Ideal.div_coe (by norm_num) y

end Cert.Perceptron

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelNet.lean ====
/-
  The kernel body's arithmetic is the perceptron on the rows of its block.

  The body casts its 256 × 1024 block of the batch to the narrow format, which changes nothing at the exact values,
  and four times over forms the product of the activations with a weight matrix contracted on the LAST axis of both
  — entry (p, n) is row p of the activations against row n of the weights —, scales it, cuts it below at zero and
  casts it again. So along row p each step is one hidden layer applied to row p of what came before. The last
  product contracts the activations' last axis with the readout matrix's FIRST axis, and is scaled by 2^-11: the
  readout. Row p of the body's result is the network on row p of the block.
-/
import proofs.«176427_j13855564497555_2_alg».proof.Proof.Gen.KernelIdeal.Skeleton
import proofs.«176427_j13855564497555_2_alg».proof.Proof.Perceptron
import proofs.«176427_j13855564497555_2_alg».proof.Proof.LibContractRows
import proofs.«176427_j13855564497555_2_alg».proof.Proof.LibContractPlain
import Idealize.ShloMosaic.Lib.Pipeline.Value

noncomputable section

namespace Cert.KernelIdeal.Net

open Cert.KernelIdeal Cert.KernelIdeal.Gen Cert.Perceptron
open Idealize.ShloMosaic Idealize.ShloMosaic.ValueIdx

/-- One hidden layer as the body spells it — product into a zero accumulator, rows against rows; times a splat
    scale; maximum with a splat of zeros; a cast — read at (p, n): the layer on row p of the activations. -/
theorem layer_apply {K : Nat} (D : DotDims ⟨2, ![256, K]⟩ ⟨2, ![2048, K]⟩ ⟨2, ![256, 2048]⟩)
    (hD : D = DotDims.transposedRhs 256 K 2048)
    (a : FVec Ideal ⟨2, ![256, K]⟩ .bf16) (w : FVec Ideal ⟨2, ![2048, K]⟩ .bf16) (s : BitVec 32)
    (h : FTy.bits .bf16 < FTy.bits .f32) (p : Fin 256) (n : Fin 2048) :
    truncf .bf16 (maximumf (mulf (matmul D none a w (constant (F := Ideal) ⟨2, ![256, 2048]⟩ .f32 0x00000000#32))
        (broadcast ⟨2, ![256, 2048]⟩ (Scalar.ofBits (F := Ideal) .f32 s)))
      (broadcast ⟨2, ![256, 2048]⟩ (Scalar.ofBits (F := Ideal) .f32 0x00000000#32))) h (ix2 p n)
      = hidden (Ideal.ofBits .f32 s) cut w (fun k => a (ix2 p k)) n := by
  subst hD
  rw [truncf_apply, maximumf_apply, mulf_apply, broadcast_apply, broadcast_apply]
  rw [show matmul (DotDims.transposedRhs 256 K 2048) none a w (constant (F := Ideal) ⟨2, ![256, 2048]⟩ .f32 0x00000000#32) (ix2 p n)
      = ∑ k : Fin K, a (ix2 p k) * w (ix2 n k) from ContractRows.matmul_zero_apply none a w p n]
  rfl

/-- The four hidden layers of the body, read at (p, n): the four layers on row p of the block. -/
theorem hidden_apply (v0 : FVec Ideal S256x1024 .f32) (v2 : FVec Ideal S2048x1024 .bf16)
    (v10 v18 v26 : FVec Ideal S2048x2048 .bf16) (p : Fin 256) (n : Fin 2048) :
    k0_pay2 (F := Ideal) v0 v2 v10 v18 v26 (ix2 p n)
      = hidden scaleHid cut v26 (hidden scaleHid cut v18 (hidden scaleHid cut v10
          (hidden scaleIn cut v2 (fun k => v0 (ix2 p k))))) n := by
  unfold k0_pay2
  simp only [shapeCast_self]
  refine (layer_apply _ rfl _ v26 _ _ p n).trans ?_
  refine congrArg (fun f => hidden scaleHid cut v26 f n) (funext fun k3 => ?_)
  refine (layer_apply _ rfl _ v18 _ _ p k3).trans ?_
  refine congrArg (fun f => hidden scaleHid cut v18 f k3) (funext fun k2 => ?_)
  refine (layer_apply _ rfl _ v10 _ _ p k2).trans ?_
  refine congrArg (fun f => hidden scaleHid cut v10 f k2) (funext fun k1 => ?_)
  exact layer_apply _ rfl _ v2 _ _ p k1

/-- The body's whole arithmetic, read at (p, q): the network on row p of the block. -/
theorem body_apply (v0 : FVec Ideal S256x1024 .f32) (v2 : FVec Ideal S2048x1024 .bf16)
    (v10 v18 v26 : FVec Ideal S2048x2048 .bf16) (v34 : FVec Ideal S2048x128 .bf16) (p : Fin 256) (q : Fin 128) :
    k0_pay1 (F := Ideal) (k0_pay2 (F := Ideal) v0 v2 v10 v18 v26) v34 (ix2 p q)
      = sample (fun k => v0 (ix2 p k)) v2 v10 v18 v26 v34 q := by
  unfold k0_pay1
  simp only [shapeCast_self]
  rw [mulf_apply, broadcast_apply]
  rw [show matmul dot_S256x2048_S2048x128_S256x128_1_0_0_1_n_n none (k0_pay2 (F := Ideal) v0 v2 v10 v18 v26) v34
        (constant (F := Ideal) S256x128 .f32 0x00000000#32) (ix2 p q)
      = ∑ k : Fin 2048, k0_pay2 (F := Ideal) v0 v2 v10 v18 v26 (ix2 p k) * v34 (ix2 k q)
      from Cert.Lib.ContractPlain.matmulZero_apply _ rfl none _ v34 p q]
  simp only [hidden_apply]
  rfl

end Cert.KernelIdeal.Net

end
-- ==== Proof.Blocks.lean ====
/-
  From the kernel's 32 blocks to its whole result array.

  The grid has 32 points. At point t the batch window holds rows 256 t … 256 t + 255 of the batch, each weight
  window holds its whole matrix (cast on the host to the narrow format, which at the exact values is the identity),
  and the result window's block is rows 256 t … 256 t + 255 of the result. The body writes to that block the
  network on the rows of the batch block; a row of the network's result depends on the same row of the batch only,
  so the block written is the restriction to those rows of ONE function of the argument arrays, the network on
  the whole batch. Row r lies in the block of point r / 256, so the 32 blocks cover the array, and the array ends
  holding that function.
-/
import proofs.«176427_j13855564497555_2_alg».proof.Proof.Gen.KernelIdeal.Value
import proofs.«176427_j13855564497555_2_alg».proof.Proof.KernelNet
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.Perceptron
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network on the argument arrays as launched on core c. -/
abbrev net (c : Dev nD) : S8192x128.Idx → EReal :=
  batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block indices over the grid: the batch window and the result window move down one block of rows per point,
    the weight windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The weights as the region finds them: the host's casts are the identity at the exact values -/

theorem found_w0 (c : Dev nD) : (V m c main_v0 : S2048x1024.Idx → EReal) = (m ((c : Thread nD τ).loc main_arg1)) := by
  dsimp only [Gen.V, Gen.hostOps0]; after_results; rfl
theorem found_w1 (c : Dev nD) : (V m c main_v1 : S2048x2048.Idx → EReal) = (m ((c : Thread nD τ).loc main_arg2)) := by
  dsimp only [Gen.V, Gen.hostOps0]; after_results; rfl
theorem found_w2 (c : Dev nD) : (V m c main_v2 : S2048x2048.Idx → EReal) = (m ((c : Thread nD τ).loc main_arg3)) := by
  dsimp only [Gen.V, Gen.hostOps0]; after_results; rfl
theorem found_w3 (c : Dev nD) : (V m c main_v3 : S2048x2048.Idx → EReal) = (m ((c : Thread nD τ).loc main_arg4)) := by
  dsimp only [Gen.V, Gen.hostOps0]; after_results; rfl
theorem found_b (c : Dev nD) : (V m c main_v4 : S2048x128.Idx → EReal) = (m ((c : Thread nD τ).loc main_arg5)) := by
  dsimp only [Gen.V, Gen.hostOps0]; after_results; rfl

/-! ## The windows' blocks at a point -/

/-- The batch window's block at point t is rows 256 t … 256 t + 255 of the batch. -/
theorem rows_block (c : Dev nD) (t : Fin cfg0.N) (p : Fin 256) (k : Fin 1024) (ht : 256 * t.val + p.val < 8192) :
    (iblk m c 0 t : Vec Ideal S256x1024 .f32) (ix2 p k)
      = ((m ((c : Thread nD τ).loc main_arg0)) : S8192x1024.Idx → EReal) (ix2 ⟨256 * t.val + p.val, ht⟩ k) := by
  have e := idx_facts t
  unfold iblk
  rw [View.read_apply]
  show V m c main_arg0 _ = (m ((c : Thread nD τ).loc main_arg0)) _
  rw [V_main_arg0 m c]
  refine congrArg _ (funext fun a => Fin.ext ?_)
  match a with
  | ⟨0, _⟩ => show win0_0.index t (0 : Fin 2) * 256 + 1 * p.val = 256 * t.val + p.val; rw [e.1]; omega
  | ⟨1, _⟩ => show win0_0.index t (1 : Fin 2) * 1024 + 1 * k.val = k.val; rw [e.2.1]; omega

/-- Each weight window's one block is its whole matrix, as launched. -/
theorem w0_block (c : Dev nD) (t : Fin cfg0.N) :
    (iblk m c 1 t : Vec Ideal S2048x1024 .bf16) = (m ((c : Thread nD τ).loc main_arg1)) := by
  have e := idx_facts t
  funext y
  unfold iblk
  rw [View.read_apply]
  show V m c main_v0 _ = (m ((c : Thread nD τ).loc main_arg1)) y
  rw [found_w0 m c]
  refine congrArg _ (funext fun a => Fin.ext ?_)
  match a with
  | ⟨0, _⟩ => show win0_1.index t (0 : Fin 2) * 2048 + 1 * (y 0).val = (y 0).val; rw [e.2.2.1]; omega
  | ⟨1, _⟩ => show win0_1.index t (1 : Fin 2) * 1024 + 1 * (y 1).val = (y 1).val; rw [e.2.2.2.1]; omega
theorem w1_block (c : Dev nD) (t : Fin cfg0.N) :
    (iblk m c 2 t : Vec Ideal S2048x2048 .bf16) = (m ((c : Thread nD τ).loc main_arg2)) := by
  have e := idx_facts t
  funext y
  unfold iblk
  rw [View.read_apply]
  show V m c main_v1 _ = (m ((c : Thread nD τ).loc main_arg2)) y
  rw [found_w1 m c]
  refine congrArg _ (funext fun a => Fin.ext ?_)
  match a with
  | ⟨0, _⟩ => show win0_2.index t (0 : Fin 2) * 2048 + 1 * (y 0).val = (y 0).val; rw [e.2.2.2.2.1]; omega
  | ⟨1, _⟩ => show win0_2.index t (1 : Fin 2) * 2048 + 1 * (y 1).val = (y 1).val; rw [e.2.2.2.2.2.1]; omega
theorem w2_block (c : Dev nD) (t : Fin cfg0.N) :
    (iblk m c 3 t : Vec Ideal S2048x2048 .bf16) = (m ((c : Thread nD τ).loc main_arg3)) := by
  have e := idx_facts t
  funext y
  unfold iblk
  rw [View.read_apply]
  show V m c main_v2 _ = (m ((c : Thread nD τ).loc main_arg3)) y
  rw [found_w2 m c]
  refine congrArg _ (funext fun a => Fin.ext ?_)
  match a with
  | ⟨0, _⟩ => show win0_3.index t (0 : Fin 2) * 2048 + 1 * (y 0).val = (y 0).val; rw [e.2.2.2.2.2.2.1]; omega
  | ⟨1, _⟩ => show win0_3.index t (1 : Fin 2) * 2048 + 1 * (y 1).val = (y 1).val; rw [e.2.2.2.2.2.2.2.1]; omega
theorem w3_block (c : Dev nD) (t : Fin cfg0.N) :
    (iblk m c 4 t : Vec Ideal S2048x2048 .bf16) = (m ((c : Thread nD τ).loc main_arg4)) := by
  have e := idx_facts t
  funext y
  unfold iblk
  rw [View.read_apply]
  show V m c main_v3 _ = (m ((c : Thread nD τ).loc main_arg4)) y
  rw [found_w3 m c]
  refine congrArg _ (funext fun a => Fin.ext ?_)
  match a with
  | ⟨0, _⟩ => show win0_4.index t (0 : Fin 2) * 2048 + 1 * (y 0).val = (y 0).val; rw [e.2.2.2.2.2.2.2.2.1]; omega
  | ⟨1, _⟩ => show win0_4.index t (1 : Fin 2) * 2048 + 1 * (y 1).val = (y 1).val; rw [e.2.2.2.2.2.2.2.2.2.1]; omega
theorem b_block (c : Dev nD) (t : Fin cfg0.N) :
    (iblk m c 5 t : Vec Ideal S2048x128 .bf16) = (m ((c : Thread nD τ).loc main_arg5)) := by
  have e := idx_facts t
  funext y
  unfold iblk
  rw [View.read_apply]
  show V m c main_v4 _ = (m ((c : Thread nD τ).loc main_arg5)) y
  rw [found_b m c]
  refine congrArg _ (funext fun a => Fin.ext ?_)
  match a with
  | ⟨0, _⟩ => show win0_5.index t (0 : Fin 2) * 2048 + 1 * (y 0).val = (y 0).val; rw [e.2.2.2.2.2.2.2.2.2.2.1]; omega
  | ⟨1, _⟩ => show win0_5.index t (1 : Fin 2) * 128 + 1 * (y 1).val = (y 1).val; rw [e.2.2.2.2.2.2.2.2.2.2.2.1]; omega

/-! ## What a point writes back -/

/-- The body's result on a block of 256 rows that are rows 256 t … of a batch X, at an entry of the block, is the
    network on X at the entry of the array 256 t rows further down. -/
theorem block_result (x0 : FVec Ideal S256x1024 .f32) (x1 : FVec Ideal S2048x1024 .bf16)
    (x2 x3 x4 : FVec Ideal S2048x2048 .bf16) (x5 : FVec Ideal S2048x128 .bf16)
    (X : S8192x1024.Idx → EReal) (t : Nat) (ht : t < 32)
    (hx : ∀ (p : Fin 256) (k : Fin 1024), x0 (ix2 p k) = X (ix2 ⟨256 * t + p.val, by have := p.isLt; omega⟩ k))
    (j : S256x128.Idx) (i : S8192x128.Idx) (hi0 : (i 0).val = 256 * t + (j 0).val) (hi1 : (i 1).val = (j 1).val) :
    k0_pay1 (F := Ideal) (k0_pay2 (F := Ideal) x0 x1 x2 x3 x4) x5 j = batch X x1 x2 x3 x4 x5 i := by
  obtain ⟨p, q, rfl⟩ : ∃ (p : Fin 256) (q : Fin 128), j = ix2 p q := ⟨j 0, j 1, eq_ix2 j⟩
  have hb : 256 * t + p.val < 8192 := by have := p.isLt; omega
  obtain ⟨r, q', rfl⟩ : ∃ (r : Fin 8192) (q' : Fin 128), i = ix2 r q' := ⟨i 0, i 1, eq_ix2 i⟩
  obtain rfl : r = ⟨256 * t + p.val, hb⟩ := Fin.ext hi0
  have hq : q' = q := Fin.ext hi1
  rw [hq, Net.body_apply, batch_apply]
  exact congrArg (fun f => sample f x1 x2 x3 x4 x5 q) (funext fun k => hx p k)

/-- WHAT POINT t WRITES BACK is block t of the network on the argument arrays. -/
theorem flushed_eq (c : Dev nD) (t : Fin cfg0.N) :
    (dats m 0 c).flushed 6 t = ((cfg0.win 6).blk t).view.read (Elt Ideal) (net m c) := by
  have hN : cfg0.N = 32 := N_0
  have ht : t.val < 32 := by have := t.isLt; omega
  have e := idx_facts t
  rw [Value.flushed6]
  unfold out0_6
  rw [View.canon_unit_zero hz]
  simp only [View.ld_unit_zero (S := S256x1024) hz, View.ld_unit_zero (S := S2048x1024) hz,
    View.ld_unit_zero (S := S2048x2048) hz, View.ld_unit_zero (S := S2048x128) hz]
  rw [w0_block m c t, w1_block m c t, w2_block m c t, w3_block m c t, b_block m c t]
  funext y
  rw [View.read_apply]
  refine block_result (iblk m c 0 t) _ _ _ _ _ (m ((c : Thread nD τ).loc main_arg0)) t.val ht
    (fun p k => rows_block m c t p k _) ((cfg0.win 6).xinj (grid0.coords t) y) (((cfg0.win 6).blk t).view.emb y) ?_ ?_
  · show win0_6.index t (0 : Fin 2) * 256 + 1 * (y 0).val = 256 * t.val + (y 0).val; rw [e.2.2.2.2.2.2.2.2.2.2.2.2.1]; omega
  · show win0_6.index t (1 : Fin 2) * 128 + 1 * (y 1).val = (y 1).val; rw [e.2.2.2.2.2.2.2.2.2.2.2.2.2]; omega

/-! ## The cover, the final array, the run -/

/-- An index of the result array is in point t's block iff each coordinate is in the block's range on its axis. -/
theorem mem_blk (t : Fin cfg0.N) (i : S8192x128.Idx) :
    i ∈ ((cfg0.win 6).blk t).view.set ↔ ∀ a : Fin 2, win0_6.index t a * S256x128.size a ≤ (i a).val
      ∧ (i a).val < win0_6.index t a * S256x128.size a + S256x128.size a := by
  show i ∈ ((View.whole main_v5).slice (win0_6.rect t)).set ↔ _
  rw [View.set_slice_whole, Rect.mem_set_unit]
  exact Iff.rfl

/-- Row r of the result array lies in the block of point r / 256: the 32 blocks cover the array. -/
theorem covered (i : S8192x128.Idx) :
    ∃ t : Fin cfg0.N, (cfg0.win 6).flush t = true ∧ i ∈ ((cfg0.win 6).blk t).view.set := by
  have h0 : (i 0).val < 8192 := idx2_lt0 i
  have h1 : (i 1).val < 128 := idx2_lt1 i
  have hN : cfg0.N = 32 := N_0
  obtain ⟨t, ht⟩ : ∃ t : Fin cfg0.N, t.val = (i 0).val / 256 := ⟨⟨(i 0).val / 256, by omega⟩, rfl⟩
  have e := idx_facts t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    rw [e.2.2.2.2.2.2.2.2.2.2.2.2.1]; omega
  | ⟨1, _⟩ =>
    show win0_6.index t (1 : Fin 2) * 128 ≤ (i 1).val ∧ (i 1).val < win0_6.index t (1 : Fin 2) * 128 + 128
    rw [e.2.2.2.2.2.2.2.2.2.2.2.2.2]; omega

/-- THE RESULT ARRAY after the run is the network on the argument arrays. -/
theorem final (c : Dev nD) : (dats m 0 c).arrAt 6 cfg0.N = net m c :=
  (dats m 0 c).arrAt_eq_of_cover 6 (net m c) (fun t _ => flushed_eq m c t) covered

/-- The kernel's run, read: the result array at the network on the argument arrays, the arguments unchanged. -/
theorem run : θ_run defs (onTc (τ := τ) (main (F := Ideal))) ⟨m, fun _ => 0, ρ⟩ fun r => ∀ c : Dev nD,
      r.2.mem ((c : Thread nD τ).loc main_v5) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.ReferenceNet.lean ====
/-
  The reference program is the perceptron on the batch, entry by entry.

  Each of its four hidden layers is a transpose of the weight matrix, a product of the activations by it, a product
  with a splat scale and a maximum with a splat of zeros. Read at entry (r, n): the product is the sum over k of the
  activation at (r, k) times the transposed weights at (k, n), that is, the weights at (n, k) — row n of the weight
  matrix against row r of the activations. So the activations after a layer, along row r, are the layer applied to
  the activations before it along row r, and the four layers compose by substituting one row function in the next.
  The readout is the product with the readout matrix, untransposed, then a quotient by a splat of 2048, which is the
  product with 2^-11.
-/
import proofs.«176427_j13855564497555_2_alg».proof.Proof.Gen.ReferenceIdeal.Read
import proofs.«176427_j13855564497555_2_alg».proof.Proof.Perceptron

noncomputable section

namespace Cert.ReferenceIdeal.Net

open Cert.ReferenceIdeal Cert.ReferenceIdeal.Read Cert.Perceptron
open Idealize.ShloMosaic Idealize.ShloMosaic.ValueIdx

/-! ## The index functions of the products and transposes, at an entry given by its coordinates -/

theorem left1 (r : Fin 8192) (n : Fin 2048) (k : Fin 1024) : lidx_main_v1 (ix2 r n) k = ix2 r k :=
  funext fun a => Fin.ext (by match a with | ⟨0, _⟩ => rfl | ⟨1, _⟩ => rfl)
theorem right1 (r : Fin 8192) (n : Fin 2048) (k : Fin 1024) : idx_main_v0 (ridx_main_v1 (ix2 r n) k) = ix2 n k :=
  funext fun a => Fin.ext (by match a with | ⟨0, _⟩ => rfl | ⟨1, _⟩ => rfl)
theorem left2 (r : Fin 8192) (n : Fin 2048) (k : Fin 2048) : lidx_main_v6 (ix2 r n) k = ix2 r k :=
  funext fun a => Fin.ext (by match a with | ⟨0, _⟩ => rfl | ⟨1, _⟩ => rfl)
theorem right2 (r : Fin 8192) (n : Fin 2048) (k : Fin 2048) : idx_main_v5 (ridx_main_v6 (ix2 r n) k) = ix2 n k :=
  funext fun a => Fin.ext (by match a with | ⟨0, _⟩ => rfl | ⟨1, _⟩ => rfl)
theorem left3 (r : Fin 8192) (n : Fin 2048) (k : Fin 2048) : lidx_main_v11 (ix2 r n) k = ix2 r k :=
  funext fun a => Fin.ext (by match a with | ⟨0, _⟩ => rfl | ⟨1, _⟩ => rfl)
theorem right3 (r : Fin 8192) (n : Fin 2048) (k : Fin 2048) : idx_main_v10 (ridx_main_v11 (ix2 r n) k) = ix2 n k :=
  funext fun a => Fin.ext (by match a with | ⟨0, _⟩ => rfl | ⟨1, _⟩ => rfl)
theorem left4 (r : Fin 8192) (n : Fin 2048) (k : Fin 2048) : lidx_main_v16 (ix2 r n) k = ix2 r k :=
  funext fun a => Fin.ext (by match a with | ⟨0, _⟩ => rfl | ⟨1, _⟩ => rfl)
theorem right4 (r : Fin 8192) (n : Fin 2048) (k : Fin 2048) : idx_main_v15 (ridx_main_v16 (ix2 r n) k) = ix2 n k :=
  funext fun a => Fin.ext (by match a with | ⟨0, _⟩ => rfl | ⟨1, _⟩ => rfl)
theorem left5 (r : Fin 8192) (q : Fin 128) (k : Fin 2048) : lidx_main_v20 (ix2 r q) k = ix2 r k :=
  funext fun a => Fin.ext (by match a with | ⟨0, _⟩ => rfl | ⟨1, _⟩ => rfl)
theorem right5 (r : Fin 8192) (q : Fin 128) (k : Fin 2048) : ridx_main_v20 (ix2 r q) k = ix2 k q :=
  funext fun a => Fin.ext (by match a with | ⟨0, _⟩ => rfl | ⟨1, _⟩ => rfl)

/-! ## The activations after each layer, along a row -/

/-- After the first layer, row r of the activations is the first layer of row r of the batch. -/
theorem act1 (x0 : (⟨S8192x1024, .f32⟩ : BufTy).Contents (Elt Ideal)) (x1 : (⟨S2048x1024, .f32⟩ : BufTy).Contents (Elt Ideal)) (r : Fin 8192) (n : Fin 2048) :
    val_main_v4 (F := Ideal) x0 x1 (ix2 r n) = hidden scaleIn cut x1 (fun k => x0 (ix2 r k)) n := by
  rw [val_main_v4_apply, val_main_v3_apply, val_main_v1_apply, val_main_v2_apply, val_main_cst_apply,
    val_main_call0_v0_apply, val_main_call0_cst_apply]
  simp only [val_main_v0_apply, left1, right1, Ideal.mulf_def, Ideal.maximumf_def, Ideal.ofBits_def]
  rfl

/-- After the second layer. -/
theorem act2 (x0 : (⟨S8192x1024, .f32⟩ : BufTy).Contents (Elt Ideal)) (x1 : (⟨S2048x1024, .f32⟩ : BufTy).Contents (Elt Ideal)) (x2 : (⟨S2048x2048, .f32⟩ : BufTy).Contents (Elt Ideal)) (r : Fin 8192) (n : Fin 2048) :
    val_main_v9 (F := Ideal) x0 x1 x2 (ix2 r n)
      = hidden scaleHid cut x2 (hidden scaleIn cut x1 (fun k => x0 (ix2 r k))) n := by
  rw [val_main_v9_apply, val_main_v8_apply, val_main_v6_apply, val_main_v7_apply, val_main_cst_0_apply,
    val_main_call1_v0_apply, val_main_call1_cst_apply]
  simp only [val_main_v5_apply, left2, right2, act1, Ideal.mulf_def, Ideal.maximumf_def, Ideal.ofBits_def]
  rfl

/-- After the third layer. -/
theorem act3 (x0 : (⟨S8192x1024, .f32⟩ : BufTy).Contents (Elt Ideal)) (x1 : (⟨S2048x1024, .f32⟩ : BufTy).Contents (Elt Ideal)) (x2 x3 : (⟨S2048x2048, .f32⟩ : BufTy).Contents (Elt Ideal)) (r : Fin 8192) (n : Fin 2048) :
    val_main_v14 (F := Ideal) x0 x1 x2 x3 (ix2 r n)
      = hidden scaleHid cut x3 (hidden scaleHid cut x2 (hidden scaleIn cut x1 (fun k => x0 (ix2 r k)))) n := by
  rw [val_main_v14_apply, val_main_v13_apply, val_main_v11_apply, val_main_v12_apply, val_main_cst_1_apply,
    val_main_call2_v0_apply, val_main_call2_cst_apply]
  simp only [val_main_v10_apply, left3, right3, act2, Ideal.mulf_def, Ideal.maximumf_def, Ideal.ofBits_def]
  rfl

/-- After the fourth layer. -/
theorem act4 (x0 : (⟨S8192x1024, .f32⟩ : BufTy).Contents (Elt Ideal)) (x1 : (⟨S2048x1024, .f32⟩ : BufTy).Contents (Elt Ideal)) (x2 x3 x4 : (⟨S2048x2048, .f32⟩ : BufTy).Contents (Elt Ideal)) (r : Fin 8192) (n : Fin 2048) :
    val_main_v19 (F := Ideal) x0 x1 x2 x3 x4 (ix2 r n)
      = hidden scaleHid cut x4 (hidden scaleHid cut x3 (hidden scaleHid cut x2 (hidden scaleIn cut x1 (fun k => x0 (ix2 r k))))) n := by
  rw [val_main_v19_apply, val_main_v18_apply, val_main_v16_apply, val_main_v17_apply, val_main_cst_2_apply,
    val_main_call3_v0_apply, val_main_call3_cst_apply]
  simp only [val_main_v15_apply, left4, right4, act3, Ideal.mulf_def, Ideal.maximumf_def, Ideal.ofBits_def]
  rfl

/-- THE REFERENCE'S RESULT is the perceptron on the batch. -/
theorem result_eq (x0 : (⟨S8192x1024, .f32⟩ : BufTy).Contents (Elt Ideal)) (x1 : (⟨S2048x1024, .f32⟩ : BufTy).Contents (Elt Ideal)) (x2 x3 x4 : (⟨S2048x2048, .f32⟩ : BufTy).Contents (Elt Ideal)) (x5 : (⟨S2048x128, .f32⟩ : BufTy).Contents (Elt Ideal)) :
    val_main_v22 (F := Ideal) x0 x1 x2 x3 x4 x5 = batch x0 x1 x2 x3 x4 x5 := by
  funext i
  obtain ⟨r, q, rfl⟩ : ∃ (r : Fin 8192) (q : Fin 128), i = ix2 r q := ⟨i 0, i 1, eq_ix2 i⟩
  rw [batch_apply, val_main_v22_apply, val_main_v20_apply, val_main_v21_apply, val_main_cst_3_apply]
  simp only [left5, right5, act4, Ideal.hostDivf_def, Ideal.ofBits_def]
  exact div_width _

end Cert.ReferenceIdeal.Net

end
-- ==== Proof.lean ====
/-
  A fused perceptron against its layer-by-layer reference, at the exact values.

  Both programs compute, for a batch x of 8192 samples of width 1024, four weight matrices and a readout matrix,
      h1 = max (x · w0ᵀ / 32, 0),   h(l+1) = max (hl · wlᵀ · s, 0)  (l = 1, 2, 3),   y = h4 · b / 2048,
  with s the one float nearest 1/sqrt 2048, spelt by the same word in both. The kernel walks the batch in 32 blocks
  of 256 rows, keeps every activation of a block on chip, contracts each weight matrix on its last axis instead of
  transposing it, rounds the operands of every product to a narrower format, and scales the readout by 2^-11 where the
  reference divides by 2048. At the exact values the roundings are the identity, a product accumulated into zeros
  is the plain sum of products, and multiplying by 2^-11 is dividing by 2048 on every extended real, so both result
  arrays are one function of the argument arrays: the network applied to each row of the batch (Proof/Perceptron.lean).
  Neither side's sums are regrouped and nothing is cancelled or distributed, so the finiteness of the inputs is
  never used.

  The reference's run ends at that function by reading its operations one at a time along a row
  (Proof/ReferenceNet.lean); the kernel's by reading its body's arithmetic along a row of a block
  (Proof/KernelNet.lean) and then its 32 blocks as the restrictions of the one function to their rows, which cover
  the array (Proof/Blocks.lean). The three frames are the generated runs; the ideal pass rewrote nothing, so there is
  nothing to preserve.
-/
import proofs.«176427_j13855564497555_2_alg».proof.Defs
import proofs.«176427_j13855564497555_2_alg».proof.Proof.Gen.Kernel
import proofs.«176427_j13855564497555_2_alg».proof.Proof.Gen.Kernel.Frame
import proofs.«176427_j13855564497555_2_alg».proof.Proof.Gen.KernelIdeal
import proofs.«176427_j13855564497555_2_alg».proof.Proof.Gen.KernelIdeal.Frame
import proofs.«176427_j13855564497555_2_alg».proof.Proof.Gen.KernelIdeal.Value
import proofs.«176427_j13855564497555_2_alg».proof.Proof.Gen.ReferenceIdeal
import proofs.«176427_j13855564497555_2_alg».proof.Proof.Gen.ReferenceIdeal.Run
import proofs.«176427_j13855564497555_2_alg».proof.Proof.Gen.ReferenceIdeal.Read
import proofs.«176427_j13855564497555_2_alg».proof.Proof.Gen.Pre_finite_inputs
import proofs.«176427_j13855564497555_2_alg».proof.Proof.Blocks
import proofs.«176427_j13855564497555_2_alg».proof.Proof.ReferenceNet
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does the kernel read at the exact values. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network on the batch in their result array. -/
theorem algebraic : Cert.algebraic_KernelIdeal_ReferenceIdeal := by
  intro m ρ m' ρ' _ hagree
  refine ⟨fun c => Cert.KernelIdeal.Blocks.net m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Net.result_eq]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
